-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 84
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x16, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x16, .f32⟩
  | .hbm, ⟨74, _⟩ => ⟨S1700000x1, .f32⟩
  | .hbm, ⟨75, _⟩ => ⟨S1700000x16, .f32⟩
  | .hbm, ⟨76, _⟩ => ⟨S1700000x16, .f32⟩
  | .hbm, ⟨77, _⟩ => ⟨S_, .f32⟩
  | .hbm, ⟨78, _⟩ => ⟨S100000x16, .f32⟩
  | .hbm, ⟨79, _⟩ => ⟨S1700000x1, .i32⟩
  | .hbm, ⟨80, _⟩ => ⟨S100000x16, .f32⟩
  | .hbm, ⟨81, _⟩ => ⟨S1x16, .f32⟩
  | .hbm, ⟨82, _⟩ => ⟨S100000x16, .f32⟩
  | .hbm, ⟨83, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x16, .f32⟩
  | .local _ .vmem, ⟨9, _⟩ => ⟨S5000x16, .f32⟩
  | .local _ .vmem, ⟨10, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x16, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x16, .f32⟩
  | .hbm, ⟨79, _⟩ => ⟨S1700000x1, .f32⟩
  | .hbm, ⟨80, _⟩ => ⟨S1700000x16, .f32⟩
  | .hbm, ⟨81, _⟩ => ⟨S1700000x16, .f32⟩
  | .hbm, ⟨82, _⟩ => ⟨S_, .f32⟩
  | .hbm, ⟨83, _⟩ => ⟨S100000x16, .f32⟩
  | .hbm, ⟨84, _⟩ => ⟨S1700000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KRun.lean ====
/-
  The idealized kernel's run, with its result array named.

  The generated frame proves that every weakly fair execution of @main ends with the argument arrays as launched; its
  proof reads every unscoped buffer of the TensorCore, after the last host stretch, at the contents `W7` — the launch
  memory carried through the five host stretches and the two regions. Read at the result buffer as well, the same run
  says what the result array holds: `W7` there.
-/
import proofs.«139961_j90305982365931_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Glue.lean ====
/-
  The graph-convolution glue that both programs run on the host around their dense layers, as functions of the
  arrays it reads, on the extended reals.

  With `src`, `dst` the edge lists (the given edges followed by one self-loop per node), the degree of a node is the
  number of edges arriving at it, `dinv = deg^(-1/2)` where `deg > 0` and `0` elsewhere, and the weight of an edge is
  `dinv(src) · dinv(dst)`, indices wrapped once when negative. An aggregation of a row-feature array `h` sends, along
  every edge, the source's row scaled by the edge's weight and adds what arrives at each node onto zero. The last step
  adds a bias vector to every row; the hidden layer adds a bias and rectifies.

  These are the operations of the reference program, cut where a dense layer sits, so that each program's host
  stretches can be read as one of them applied to what the dense layers produced.
-/
import proofs.«139961_j90305982365931_1_alg».proof.ReferenceIdeal
import proofs.«139961_j90305982365931_1_alg».proof.Proof.Gen.ReferenceIdeal
import Idealize.ShloMosaic.PureOps.Ideal

noncomputable section

namespace Cert.Glue

open Cert.ReferenceIdeal Cert.ReferenceIdeal.Facts₀ Cert.ReferenceIdeal.Facts Idealize.ShloMosaic

/-- A vector of `n` 32-bit integers / floats on the extended reals, by shape. -/
abbrev IArr (s : Shape) : Type := IVec s 32
abbrev FArr (s : Shape) : Type := FVec Ideal s .f32

/-- The sources of the edges: row 0 of the edge list, then every node once. -/
def srcOf (ei : IArr S2x1600000) : IArr S1700000 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The targets of the edges: row 1 of the edge list, then every node once. -/
def dstOf (ei : IArr S2x1600000) : IArr S1700000 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A node index wrapped once when negative, laid out as a column of start indices. -/
def wrapCol (v : IArr S1700000) : IArr S1700000x1 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The number of edges arriving at each node. -/
def degOf (d : IArr S1700000) : FArr S100000 :=
  Host.scatterAdd (F := Ideal) scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- Where the degree is positive. -/
def degPos (d : IArr S1700000) : IVec S100000 1 :=
  cmpf (F := Ideal) (φ := .f32) .ogt (degOf d) (broadcastInDim S100000 ![] bcast_S_S100000 (constant (F := Ideal) S_ .f32 0x00000000#32))

/-- The inverse square root of the degree. -/
def degRsqrt (d : IArr S1700000) : FArr S100000 := Host.rsqrt (F := Ideal) (φ := .f32) (degOf d)

/-- The scalar zero. -/
def zeroS : FArr S_ := constant (F := Ideal) S_ .f32 0x00000000#32

/-- A node array where the test holds, the scalar broadcast elsewhere. -/
def selOf (p : IVec S100000 1) (r : FArr S100000) (z : FArr S_) : FArr S100000 :=
  select p r (broadcastInDim S100000 ![] bcast_S_S100000 (id z))

/-- `deg^(-1/2)` where the degree is positive, zero elsewhere. -/
def dinvOf (d : IArr S1700000) : FArr S100000 := selOf (degPos d) (degRsqrt d) zeroS

/-- The weight of each edge from a per-node factor: the factor at the source times the factor at the target. -/
def normFrom (dv : FArr S100000) (s d : IArr S1700000) : FArr S1700000 :=
  mulf (F := Ideal) (φ := .f32) (Host.gather gather_S100000_S1700000x1_S1700000_n_0_n_n_0_1_1 dv (wrapCol s))
    (Host.gather gather_S100000_S1700000x1_S1700000_n_0_n_n_0_1_1 dv (wrapCol d))

/-- The weight of each edge. -/
def normOf (s d : IArr S1700000) : FArr S1700000 := normFrom (dinvOf d) s d

/-- The weighted aggregation of 128-wide rows along the edges. -/
def agg128 (s d : IArr S1700000) (w : FArr S1700000) (h : FArr S100000x128) : FArr S100000x128 :=
  Host.scatterAdd (F := Ideal) scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (F := Ideal) (φ := .f32) (Host.gather gather_S100000x128_S1700000x1_S1700000x128_1_0_n_n_0_1_1128 h (wrapCol s))
      (broadcastInDim S1700000x128 ![0, 1] bcast_S1700000x1_S1700000x128_0_1 (broadcastInDim S1700000x1 ![0] bcast_S1700000_S1700000x1_0 w)))

/-- The weighted aggregation of 16-wide rows along the edges. -/
def agg16 (s d : IArr S1700000) (w : FArr S1700000) (h : FArr S100000x16) : FArr S100000x16 :=
  Host.scatterAdd (F := Ideal) scatter_S100000x16_S1700000x1_S1700000x16_1_0_0_1
    (broadcastInDim S100000x16 ![] bcast_S_S100000x16 (constant S_ .f32 0x00000000#32))
    (broadcastInDim S1700000x1 ![0] bcast_S1700000_S1700000x1_0 d)
    (mulf (F := Ideal) (φ := .f32) (Host.gather gather_S100000x16_S1700000x1_S1700000x16_1_0_n_n_0_1_116 h (wrapCol s))
      (broadcastInDim S1700000x16 ![0, 1] bcast_S1700000x1_S1700000x16_0_1 (broadcastInDim S1700000x1 ![0] bcast_S1700000_S1700000x1_0 w)))

/-- The output bias added to every row. -/
def addOut (y : FArr S100000x16) (b : FArr S16) : FArr S100000x16 :=
  addf (F := Ideal) (φ := .f32) y (broadcastInDim S100000x16 ![0, 1] bcast_S1x16_S100000x16_0_1 (broadcastInDim S1x16 ![1] bcast_S16_S1x16_1 b))

/-- The hidden layer's bias added to every row, then rectified (the host's spelling). -/
def hiddenOf (a : FArr S100000x128) (b : FArr S128) : FArr S100000x128 :=
  maximumf (F := Ideal) (φ := .f32) (addf (F := Ideal) (φ := .f32) a (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

end Cert.Glue

end
-- ==== Proof.KFoldA.lean ====
/-
  The idealized kernel's host stretches, each over any starting contents. They are the reference's operations around the
  two dense regions: the first three stretches build the edge lists and the edge weights from the edge-index argument;
  the stretch after region 0 aggregates region 0's array along the edges and lays the hidden bias out as one row; the last
  stretch aggregates region 1's array and adds the output bias.
-/
import proofs.«139961_j90305982365931_1_alg».proof.Proof.Gen.KernelIdeal.Frame
import proofs.«139961_j90305982365931_1_alg».proof.Proof.Glue
import Idealize.ShloMosaic.Lib.StableHlo.Run

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo

variable (V : Valuation τ sig (Elt Ideal))

/-! ## Before region 0 -/

theorem k_v3 : after hostOps0 V (Proc.devRef .tc main_v3) = Glue.srcOf (V (Proc.devRef .tc main_arg1)) := by
  unfold hostOps0; after_results; rfl
theorem k_v6 : after hostOps0 V (Proc.devRef .tc main_v6) = Glue.dstOf (V (Proc.devRef .tc main_arg1)) := by
  unfold hostOps0; after_results; rfl
theorem k_v12 : after hostOps0 V (Proc.devRef .tc main_v12) = Glue.degPos (Glue.dstOf (V (Proc.devRef .tc main_arg1))) := by
  unfold hostOps0; after_results; rfl
theorem k_v13 : after hostOps0 V (Proc.devRef .tc main_v13) = Glue.degRsqrt (Glue.dstOf (V (Proc.devRef .tc main_arg1))) := by
  unfold hostOps0; after_results; rfl
theorem k_cst_2 : after hostOps0 V (Proc.devRef .tc main_cst_2) = Glue.zeroS := by
  unfold hostOps0; after_results; rfl
theorem k_arg0 : after hostOps0 V (Proc.devRef .tc main_arg0) = V (Proc.devRef .tc main_arg0) := by
  unfold hostOps0; after_results_simp
theorem k_arg2 : after hostOps0 V (Proc.devRef .tc main_arg2) = V (Proc.devRef .tc main_arg2) := by
  unfold hostOps0; after_results_simp
theorem k_arg3 : after hostOps0 V (Proc.devRef .tc main_arg3) = V (Proc.devRef .tc main_arg3) := by
  unfold hostOps0; after_results_simp
theorem k_arg4 : after hostOps0 V (Proc.devRef .tc main_arg4) = V (Proc.devRef .tc main_arg4) := by
  unfold hostOps0; after_results_simp
theorem k_arg5 : after hostOps0 V (Proc.devRef .tc main_arg5) = V (Proc.devRef .tc main_arg5) := by
  unfold hostOps0; after_results_simp

/-- The selection and the edge weights: the second and third stretches, one after the other. -/
theorem kn_v29 : after hostOps0_2 (after hostOps0_1 V) (Proc.devRef .tc main_v29)
    = Glue.normFrom (Glue.selOf (V (Proc.devRef .tc main_v12)) (V (Proc.devRef .tc main_v13)) (V (Proc.devRef .tc main_cst_2))) (V (Proc.devRef .tc main_v3)) (V (Proc.devRef .tc main_v6)) := by
  unfold hostOps0_2 hostOps0_1; after_results; rfl
theorem kn_v3 : after hostOps0_2 (after hostOps0_1 V) (Proc.devRef .tc main_v3) = V (Proc.devRef .tc main_v3) := by
  unfold hostOps0_2 hostOps0_1; after_results_simp
theorem kn_v6 : after hostOps0_2 (after hostOps0_1 V) (Proc.devRef .tc main_v6) = V (Proc.devRef .tc main_v6) := by
  unfold hostOps0_2 hostOps0_1; after_results_simp
theorem kn_arg0 : after hostOps0_2 (after hostOps0_1 V) (Proc.devRef .tc main_arg0) = V (Proc.devRef .tc main_arg0) := by
  unfold hostOps0_2 hostOps0_1; after_results_simp
theorem kn_arg2 : after hostOps0_2 (after hostOps0_1 V) (Proc.devRef .tc main_arg2) = V (Proc.devRef .tc main_arg2) := by
  unfold hostOps0_2 hostOps0_1; after_results_simp
theorem kn_arg3 : after hostOps0_2 (after hostOps0_1 V) (Proc.devRef .tc main_arg3) = V (Proc.devRef .tc main_arg3) := by
  unfold hostOps0_2 hostOps0_1; after_results_simp
theorem kn_arg4 : after hostOps0_2 (after hostOps0_1 V) (Proc.devRef .tc main_arg4) = V (Proc.devRef .tc main_arg4) := by
  unfold hostOps0_2 hostOps0_1; after_results_simp
theorem kn_arg5 : after hostOps0_2 (after hostOps0_1 V) (Proc.devRef .tc main_arg5) = V (Proc.devRef .tc main_arg5) := by
  unfold hostOps0_2 hostOps0_1; after_results_simp

end Cert.KernelIdeal.Fold

end
-- ==== Proof.KFoldB.lean ====
/-
  The idealized kernel's host stretches, each over any starting contents. They are the reference's operations around the
  two dense regions: the first three stretches build the edge lists and the edge weights from the edge-index argument;
  the stretch after region 0 aggregates region 0's array along the edges and lays the hidden bias out as one row; the last
  stretch aggregates region 1's array and adds the output bias.
-/
import proofs.«139961_j90305982365931_1_alg».proof.Proof.Gen.KernelIdeal.Frame
import proofs.«139961_j90305982365931_1_alg».proof.Proof.Glue
import Idealize.ShloMosaic.Lib.StableHlo.Run

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo

variable (V : Valuation τ sig (Elt Ideal))

/-! ## Between the regions -/

theorem mid_v43 : after hostOps1 V (Proc.devRef .tc main_v43)
    = Glue.agg128 (V (Proc.devRef .tc main_v3)) (V (Proc.devRef .tc main_v6)) (V (Proc.devRef .tc main_v29)) (V (Proc.devRef .tc main_v30)) := by
  unfold hostOps1; after_results; rfl
theorem mid_v44 : after hostOps1 V (Proc.devRef .tc main_v44) = shapeCast S1x128 (V (Proc.devRef .tc main_arg3)) Gen.shapeCasts_S128_S1x128 := by
  unfold hostOps1; after_results; rfl
theorem mid_v3 : after hostOps1 V (Proc.devRef .tc main_v3) = V (Proc.devRef .tc main_v3) := by
  unfold hostOps1; after_results_simp
theorem mid_v6 : after hostOps1 V (Proc.devRef .tc main_v6) = V (Proc.devRef .tc main_v6) := by
  unfold hostOps1; after_results_simp
theorem mid_v29 : after hostOps1 V (Proc.devRef .tc main_v29) = V (Proc.devRef .tc main_v29) := by
  unfold hostOps1; after_results_simp
theorem mid_arg4 : after hostOps1 V (Proc.devRef .tc main_arg4) = V (Proc.devRef .tc main_arg4) := by
  unfold hostOps1; after_results_simp
theorem mid_arg5 : after hostOps1 V (Proc.devRef .tc main_arg5) = V (Proc.devRef .tc main_arg5) := by
  unfold hostOps1; after_results_simp

/-! ## After region 1 -/

theorem tail_v61 : after hostOps2 V (Proc.devRef .tc main_v61)
    = Glue.addOut (Glue.agg16 (V (Proc.devRef .tc main_v3)) (V (Proc.devRef .tc main_v6)) (V (Proc.devRef .tc main_v29)) (V (Proc.devRef .tc main_v45))) (V (Proc.devRef .tc main_arg5)) := by
  unfold hostOps2; after_results; rfl

end Cert.KernelIdeal.Fold

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«139961_j90305982365931_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.KBlocks.lean ====
/-
  What each of the kernel's two dense regions leaves in its output array, as one function of the arrays the region
  finds, on the extended reals.

  Region 0 multiplies a block of 5000 rows of the feature array by the whole first weight matrix; region 1 adds the
  bias row to a block of 5000 rows, rectifies, and multiplies by the whole second weight matrix. A change of float format
  is the identity on the extended reals and a product into a zero accumulator is the matrix product, so the block a grid
  point writes back is that point's 5000 rows of `x · W1`, respectively of `relu(h + b) · W2`: an entry of a matrix product
  depends on one row of the left operand only. The twenty blocks tile the 100000 rows, so each output array ends holding
  the whole product.
-/
import proofs.«139961_j90305982365931_1_alg».proof.Proof.Gen.KernelIdeal.Frame
import proofs.«139961_j90305982365931_1_alg».proof.Proof.LibBiasRow
import Idealize.ShloMosaic.Lib.Pipeline.Value

set_option maxRecDepth 16384

noncomputable section

namespace Cert.KernelIdeal.Blocks

open Cert.KernelIdeal Cert.KernelIdeal.Gen Cert.KernelIdeal.Facts₀ Cert.KernelIdeal.Facts
open Idealize.ShloMosaic Idealize.ShloMosaic.TcCoe Idealize.SL.Sem Idealize.ShloMosaic.ValueIdx
open Idealize.ShloMosaic.Pipeline (Dat)
open Cert.Dense Cert.BiasRow

variable (V : (c : Dev nD) → (b : Ref sig .tc) → Buf (Elt Ideal) ((c : Thread nD τ).loc b))

theorem hz : (![0, 0] : Fin 2 → Nat) = fun _ => 0 := funext fun a => by fin_cases a <;> rfl

/-! ## The bodies' arithmetic -/

/-- Region 0's stored value is the product of its two loaded blocks. -/
theorem pay0 (x0 : Vec Ideal S5000x256 .f32) (x1 : Vec Ideal S256x128 .f32) :
    k0_pay1 (F := Ideal) x0 x1 = mm x0 x1 := by
  unfold k0_pay1
  exact matmul_zero_eq_mm _ rfl rfl rfl rfl rfl rfl none _ _

/-- Region 1's stored value is the rectified biased block times the weight block. -/
theorem pay1 (x0 : Vec Ideal S5000x128 .f32) (x1 : Vec Ideal S1x128 .f32) (x2 : Vec Ideal S128x16 .f32) :
    k1_pay1 (F := Ideal) x0 x1 x2 = mm (reluBias x0 x1) x2 := by
  unfold k1_pay1
  rw [shapeCast_self, shapeCast_self]
  refine (matmul_zero_eq_mm _ rfl rfl rfl rfl rfl rfl none _ _).trans ?_
  exact congrArg (fun l => mm l x2) (vecReluBias x0 x1 _)

/-- A row block of the rectified layer's product against the whole arrays, at a pair of indices. -/
theorem layer_at {M R K N : ℕ} (X : Mat M K) (B : Mat 1 K) (W : Mat K N) (xb : Mat R K) (bb : Mat 1 K) (wb : Mat K N)
    (j : (⟨2, ![R, N]⟩ : Shape).Idx) (i : (⟨2, ![M, N]⟩ : Shape).Idx)
    (hx : ∀ k : Fin K, xb (ix2 (c0 j) k) = X (ix2 (c0 i) k)) (hb : ∀ k : Fin K, bb (ix2 (0 : Fin 1) k) = B (ix2 (0 : Fin 1) k))
    (hw : ∀ k : Fin K, wb (ix2 k (c1 j)) = W (ix2 k (c1 i))) :
    mm (reluBias xb bb) wb j = mm (reluBias X B) W i :=
  mm_at _ _ _ _ j i (fun k => reluBias_at X B xb bb _ _ (hx k) (hb k)) hw

/-! ## Region 0 -/

/-- The printed index maps over the grid: the row blocks move with the point, everything else stays at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays the region finds. -/
theorem flushed0_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  rw [pay0]
  obtain ⟨e0, e1, e2, e3, e4, e5⟩ := idx0 t
  funext j
  show mm (iblk0 V c 0 t) (iblk0 V c 1 t) j = mm (V c main_arg0) (V c main_arg2) (((cfg0.win 2).blk t).view.emb j)
  refine mm_at _ _ _ _ j _ (fun k => ?_) (fun k => ?_)
  · show V c main_arg0 (((cfg0.win 0).blk t).view.emb (ix2 (c0 j) k)) = V c main_arg0 (ix2 (c0 (((cfg0.win 2).blk t).view.emb j)) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg2 (((cfg0.win 1).blk t).view.emb (ix2 k (c1 j))) = V c main_arg2 (ix2 k (c1 (((cfg0.win 2).blk t).view.emb j)))
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` is in the block of point `r / 5000`. -/
theorem cover0 (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨e0, e1, e2, e3, e4, e5⟩ := idx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0's output array after the region: the product of the two arrays it finds. -/
theorem final0 (c : Dev nD) : (dat0 V c).arrAt 2 cfg0.N = mm (V c main_arg0) (V c main_arg2) :=
  (dat0 V c).arrAt_eq_of_cover 2 (mm (V c main_arg0) (V c main_arg2)) (fun t _ => flushed0_eq V c t) cover0

/-! ## Region 1 -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the rectified biased array times the weight array. -/
theorem flushed1_eq (c : Dev nD) (t : Fin cfg1.N) :
    (dat1 V c).flushed 3 t = ((cfg1.win 3).blk t).view.read (Elt Ideal)
      (mm (reluBias (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x16) hz]
  rw [pay1]
  obtain ⟨e0, e1, e2, e3, e4, e5, e6, e7⟩ := idx1 t
  funext j
  show mm (reluBias (iblk1 V c 0 t) (iblk1 V c 1 t)) (iblk1 V c 2 t) j
    = mm (reluBias (V c main_v43) (V c main_v44)) (V c main_arg4) (((cfg1.win 3).blk t).view.emb j)
  refine layer_at _ _ _ _ _ _ j _ (fun k => ?_) (fun k => ?_) (fun k => ?_)
  · show V c main_v43 (((cfg1.win 0).blk t).view.emb (ix2 (c0 j) k)) = V c main_v43 (ix2 (c0 (((cfg1.win 3).blk t).view.emb j)) k)
    refine congrArg (V c main_v43) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_v44 (((cfg1.win 1).blk t).view.emb (ix2 (0 : Fin 1) k)) = V c main_v44 (ix2 (0 : Fin 1) k)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 k (c1 j))) = V c main_arg4 (ix2 k (c1 (((cfg1.win 3).blk t).view.emb j)))
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 16 + 1 * (j 1).val = win1_3.index t (1 : Fin 2) * 16 + 1 * (j 1).val; omega

theorem mem_blk1 (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v45).slice (win1_3.rect t)).set ↔ _
  rw [View.set_slice_whole, Rect.mem_set_unit]
  exact Iff.rfl

theorem cover1 (i : S100000x16.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 16 := (i 1).isLt
  let t : Fin cfg1.N := ⟨(i 0).val / 5000, by rw [hN]; omega⟩
  obtain ⟨e0, e1, e2, e3, e4, e5, e6, e7⟩ := idx1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-- Region 1's output array after the region. -/
theorem final1 (c : Dev nD) : (dat1 V c).arrAt 3 cfg1.N = mm (reluBias (V c main_v43) (V c main_v44)) (V c main_arg4) :=
  (dat1 V c).arrAt_eq_of_cover 3 (mm (reluBias (V c main_v43) (V c main_v44)) (V c main_arg4)) (fun t _ => flushed1_eq V c t) cover1

end Cert.KernelIdeal.Blocks

end
-- ==== Proof.KValue.lean ====
/-
  What the idealized kernel's result array holds at the end of @main, as one function of the six argument arrays.

  The contents of the TensorCore's buffers at the segment boundaries are a fold from the launch memory: a host stretch
  applies its operations, a region replaces its output array by what its pipeline leaves — `x · W1` for region 0,
  `relu(h + b1) · W2` of the arrays it finds for region 1 — and keeps every other buffer. Walking the fold: the edge
  lists and weights are those of the edge-index argument at every later boundary; region 0's array is the first product;
  the aggregation of it and the bias row enter region 1; the last stretch aggregates region 1's array and adds the
  output bias.
-/
import proofs.«139961_j90305982365931_1_alg».proof.Proof.KFoldA
import proofs.«139961_j90305982365931_1_alg».proof.Proof.KFoldB
import proofs.«139961_j90305982365931_1_alg».proof.Proof.KBlocks

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo
open Cert.Dense Cert.BiasRow

/-- The kernel's result as a function of its six argument arrays: the output bias added to the aggregation of
    `relu(aggregate(x · W1) + b1) · W2`. -/
def kval (x0 : Glue.FArr Cert.ReferenceIdeal.S100000x256) (e : Glue.IArr Cert.ReferenceIdeal.S2x1600000)
    (x2 : Glue.FArr Cert.ReferenceIdeal.S256x128) (x3 : Glue.FArr Cert.ReferenceIdeal.S128)
    (x4 : Glue.FArr Cert.ReferenceIdeal.S128x16) (x5 : Glue.FArr Cert.ReferenceIdeal.S16) : Glue.FArr Cert.ReferenceIdeal.S100000x16 :=
  Glue.addOut
    (Glue.agg16 (Glue.srcOf e) (Glue.dstOf e) (Glue.normOf (Glue.srcOf e) (Glue.dstOf e))
      (mm (M := 100000) (K := 128) (N := 16)
        (reluBias (M := 100000) (N := 128)
          (Glue.agg128 (Glue.srcOf e) (Glue.dstOf e) (Glue.normOf (Glue.srcOf e) (Glue.dstOf e)) (mm (M := 100000) (K := 256) (N := 128) x0 x2))
          (row x3))
        x4))
    x5

variable (m : (ℓ : Loc nD τ sig) → Buf (Elt Ideal) ℓ) (ρ : Dev nD → PrngReg)

/-! ## Region 0's entry -/

theorem L3_v3 (c : Dev nD) : W3 m ρ c (Proc.devRef .tc main_v3) = Glue.srcOf (m ((c : Thread nD τ).loc main_arg1)) :=
  (kn_v3 _).trans (k_v3 _)
theorem L3_v6 (c : Dev nD) : W3 m ρ c (Proc.devRef .tc main_v6) = Glue.dstOf (m ((c : Thread nD τ).loc main_arg1)) :=
  (kn_v6 _).trans (k_v6 _)
theorem L3_v29 (c : Dev nD) : W3 m ρ c (Proc.devRef .tc main_v29)
    = Glue.normOf (Glue.srcOf (m ((c : Thread nD τ).loc main_arg1))) (Glue.dstOf (m ((c : Thread nD τ).loc main_arg1))) :=
  (kn_v29 _).trans (by unfold W1; rw [k_v12, k_v13, k_cst_2, k_v3, k_v6]; rfl)
theorem L3_arg0 (c : Dev nD) : W3 m ρ c (Proc.devRef .tc main_arg0) = m ((c : Thread nD τ).loc main_arg0) :=
  (kn_arg0 _).trans (k_arg0 _)
theorem L3_arg2 (c : Dev nD) : W3 m ρ c (Proc.devRef .tc main_arg2) = m ((c : Thread nD τ).loc main_arg2) :=
  (kn_arg2 _).trans (k_arg2 _)
theorem L3_arg3 (c : Dev nD) : W3 m ρ c (Proc.devRef .tc main_arg3) = m ((c : Thread nD τ).loc main_arg3) :=
  (kn_arg3 _).trans (k_arg3 _)
theorem L3_arg4 (c : Dev nD) : W3 m ρ c (Proc.devRef .tc main_arg4) = m ((c : Thread nD τ).loc main_arg4) :=
  (kn_arg4 _).trans (k_arg4 _)
theorem L3_arg5 (c : Dev nD) : W3 m ρ c (Proc.devRef .tc main_arg5) = m ((c : Thread nD τ).loc main_arg5) :=
  (kn_arg5 _).trans (k_arg5 _)

/-! ## Region 0's exit -/

theorem L4_v3 (c : Dev nD) : W4 m ρ c (Proc.devRef .tc main_v3) = W3 m ρ c (Proc.devRef .tc main_v3) := W4_of_ne m ρ c main_v3 (by decide)
theorem L4_v6 (c : Dev nD) : W4 m ρ c (Proc.devRef .tc main_v6) = W3 m ρ c (Proc.devRef .tc main_v6) := W4_of_ne m ρ c main_v6 (by decide)
theorem L4_v29 (c : Dev nD) : W4 m ρ c (Proc.devRef .tc main_v29) = W3 m ρ c (Proc.devRef .tc main_v29) := W4_of_ne m ρ c main_v29 (by decide)
theorem L4_arg3 (c : Dev nD) : W4 m ρ c (Proc.devRef .tc main_arg3) = W3 m ρ c (Proc.devRef .tc main_arg3) := W4_of_ne m ρ c main_arg3 (by decide)
theorem L4_arg4 (c : Dev nD) : W4 m ρ c (Proc.devRef .tc main_arg4) = W3 m ρ c (Proc.devRef .tc main_arg4) := W4_of_ne m ρ c main_arg4 (by decide)
theorem L4_arg5 (c : Dev nD) : W4 m ρ c (Proc.devRef .tc main_arg5) = W3 m ρ c (Proc.devRef .tc main_arg5) := W4_of_ne m ρ c main_arg5 (by decide)
theorem L4_v30 (c : Dev nD) : W4 m ρ c (Proc.devRef .tc main_v30) = mm (M := 100000) (K := 256) (N := 128) (m ((c : Thread nD τ).loc main_arg0)) (m ((c : Thread nD τ).loc main_arg2)) := by
  refine (W4_arr m ρ c 2).trans ((Blocks.final0 (V3 m ρ) c).trans ?_)
  show mm (W3 m ρ c (Proc.devRef .tc main_arg0)) (W3 m ρ c (Proc.devRef .tc main_arg2)) = _
  rw [L3_arg0, L3_arg2]

/-! ## Region 1's entry -/

theorem L5_v43 (c : Dev nD) : W5 m ρ c (Proc.devRef .tc main_v43)
    = Glue.agg128 (Glue.srcOf (m ((c : Thread nD τ).loc main_arg1))) (Glue.dstOf (m ((c : Thread nD τ).loc main_arg1))) (Glue.normOf (Glue.srcOf (m ((c : Thread nD τ).loc main_arg1))) (Glue.dstOf (m ((c : Thread nD τ).loc main_arg1))))
        (mm (M := 100000) (K := 256) (N := 128) (m ((c : Thread nD τ).loc main_arg0)) (m ((c : Thread nD τ).loc main_arg2))) :=
  (mid_v43 _).trans (by rw [L4_v3, L4_v6, L4_v29, L4_v30, L3_v3, L3_v6, L3_v29])
theorem L5_v44 (c : Dev nD) : W5 m ρ c (Proc.devRef .tc main_v44) = row (m ((c : Thread nD τ).loc main_arg3)) :=
  (mid_v44 _).trans (by rw [L4_arg3, L3_arg3]; exact shapeCast_row _ _)
theorem L5_arg4 (c : Dev nD) : W5 m ρ c (Proc.devRef .tc main_arg4) = m ((c : Thread nD τ).loc main_arg4) :=
  (mid_arg4 _).trans ((L4_arg4 m ρ c).trans (L3_arg4 m ρ c))
theorem L5_arg5 (c : Dev nD) : W5 m ρ c (Proc.devRef .tc main_arg5) = m ((c : Thread nD τ).loc main_arg5) :=
  (mid_arg5 _).trans ((L4_arg5 m ρ c).trans (L3_arg5 m ρ c))
theorem L5_v3 (c : Dev nD) : W5 m ρ c (Proc.devRef .tc main_v3) = Glue.srcOf (m ((c : Thread nD τ).loc main_arg1)) :=
  (mid_v3 _).trans ((L4_v3 m ρ c).trans (L3_v3 m ρ c))
theorem L5_v6 (c : Dev nD) : W5 m ρ c (Proc.devRef .tc main_v6) = Glue.dstOf (m ((c : Thread nD τ).loc main_arg1)) :=
  (mid_v6 _).trans ((L4_v6 m ρ c).trans (L3_v6 m ρ c))
theorem L5_v29 (c : Dev nD) : W5 m ρ c (Proc.devRef .tc main_v29) = Glue.normOf (Glue.srcOf (m ((c : Thread nD τ).loc main_arg1))) (Glue.dstOf (m ((c : Thread nD τ).loc main_arg1))) :=
  (mid_v29 _).trans ((L4_v29 m ρ c).trans (L3_v29 m ρ c))

/-! ## Region 1's exit -/

theorem L6_v3 (c : Dev nD) : W6 m ρ c (Proc.devRef .tc main_v3) = Glue.srcOf (m ((c : Thread nD τ).loc main_arg1)) :=
  (W6_of_ne m ρ c main_v3 (by decide)).trans (L5_v3 m ρ c)
theorem L6_v6 (c : Dev nD) : W6 m ρ c (Proc.devRef .tc main_v6) = Glue.dstOf (m ((c : Thread nD τ).loc main_arg1)) :=
  (W6_of_ne m ρ c main_v6 (by decide)).trans (L5_v6 m ρ c)
theorem L6_v29 (c : Dev nD) : W6 m ρ c (Proc.devRef .tc main_v29) = Glue.normOf (Glue.srcOf (m ((c : Thread nD τ).loc main_arg1))) (Glue.dstOf (m ((c : Thread nD τ).loc main_arg1))) :=
  (W6_of_ne m ρ c main_v29 (by decide)).trans (L5_v29 m ρ c)
theorem L6_arg5 (c : Dev nD) : W6 m ρ c (Proc.devRef .tc main_arg5) = m ((c : Thread nD τ).loc main_arg5) :=
  (W6_of_ne m ρ c main_arg5 (by decide)).trans (L5_arg5 m ρ c)
theorem L6_v45 (c : Dev nD) : W6 m ρ c (Proc.devRef .tc main_v45)
    = mm (M := 100000) (K := 128) (N := 16)
        (reluBias (M := 100000) (N := 128)
          (Glue.agg128 (Glue.srcOf (m ((c : Thread nD τ).loc main_arg1))) (Glue.dstOf (m ((c : Thread nD τ).loc main_arg1))) (Glue.normOf (Glue.srcOf (m ((c : Thread nD τ).loc main_arg1))) (Glue.dstOf (m ((c : Thread nD τ).loc main_arg1))))
            (mm (M := 100000) (K := 256) (N := 128) (m ((c : Thread nD τ).loc main_arg0)) (m ((c : Thread nD τ).loc main_arg2))))
          (row (m ((c : Thread nD τ).loc main_arg3))))
        (m ((c : Thread nD τ).loc main_arg4)) := by
  refine (W6_arr m ρ c 3).trans ((Blocks.final1 (V5 m ρ) c).trans ?_)
  show mm (reluBias (W5 m ρ c (Proc.devRef .tc main_v43)) (W5 m ρ c (Proc.devRef .tc main_v44))) (W5 m ρ c (Proc.devRef .tc main_arg4)) = _
  rw [L5_v43, L5_v44, L5_arg4]

/-! ## The result -/

/-- After the last stretch the result buffer holds `kval` of the arguments as launched. -/
theorem kernel_value (c : Dev nD) : W7 m ρ c (Proc.devRef .tc main_v61)
    = kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (tail_v61 _).trans (by rw [L6_v3, L6_v6, L6_v29, L6_v45, L6_arg5]; rfl)

end Cert.KernelIdeal.Fold

end
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.RefRun.lean ====
/-
  The reference program's run, read back: its @main is one straight line of host operations, so every weakly fair
  execution terminates with each buffer at the fold of the operations over the launch contents. The line is cut into
  six stretches — the edge lists and the degree test; the edge weights; the first product and its aggregation; the hidden
  layer; the second product; the second aggregation and the output bias — so that each can be read on its own.
-/
import proofs.«139961_j90305982365931_1_alg».proof.Proof.Gen.ReferenceIdeal
import proofs.«139961_j90305982365931_1_alg».proof.Proof.LibPadSplit
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- @main's 83 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x16 ![0, 1] bcast_S1700000x1_S1700000x16_0_1 : (⟨S1700000x1, .f32⟩ : BufTy).Contents (Elt F) → (⟨S1700000x16, .f32⟩ : BufTy).Contents (Elt F)),
    binary main_v55 main_v57 main_v58 (mulf : (⟨S1700000x16, .f32⟩ : BufTy).Contents (Elt F) → (⟨S1700000x16, .f32⟩ : BufTy).Contents (Elt F) → (⟨S1700000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)) ]

/-- The edge lists, the degrees, the degree test and the inverse square roots. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]
/-- The selection of the inverse square roots and the edge weights. -/
abbrev opsN : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]
/-- The first product and its aggregation along the edges. -/
abbrev opsH1 : List (HloOp τ sig (Elt F)) :=
  [ binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The hidden layer: the bias added to every row, rectified. -/
abbrev opsH2 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]
/-- The second product. -/
abbrev opsH3 : List (HloOp τ sig (Elt F)) :=
  [ binary main_v47 main_arg4 main_v48 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) ]
/-- The second aggregation and the output bias. -/
abbrev opsT : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x16 ![0, 1] bcast_S1700000x1_S1700000x16_0_1 : (⟨S1700000x1, .f32⟩ : BufTy).Contents (Elt F) → (⟨S1700000x16, .f32⟩ : BufTy).Contents (Elt F)),
    binary main_v55 main_v57 main_v58 (mulf : (⟨S1700000x16, .f32⟩ : BufTy).Contents (Elt F) → (⟨S1700000x16, .f32⟩ : BufTy).Contents (Elt F) → (⟨S1700000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)) ]

set_option maxRecDepth 8192 in
theorem ops_split : (ops : List (HloOp τ sig (Elt F))) = opsA ++ (opsN ++ (opsH1 ++ (opsH2 ++ (opsH3 ++ opsT)))) := rfl

/-- The contents after the whole line are the stretches' contents, one after the other. -/
theorem after_ops (V : Valuation τ sig (Elt F)) : after ops V = after opsT (after opsH3 (after opsH2 (after opsH1 (after opsN (after opsA V))))) := by
  rw [ops_split, Cert.PadSplit.after_append, Cert.PadSplit.after_append, Cert.PadSplit.after_append, Cert.PadSplit.after_append,
    Cert.PadSplit.after_append]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Every weakly fair execution of @main terminates with every TensorCore buffer at the fold of the operations over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefStagesA.lean ====
/-
  The reference's first two stretches over any starting contents: the first builds the edge lists, the degrees, the
  degree test and the inverse square roots from the edge-index argument; the second selects the inverse square roots
  where the degree is positive and multiplies them along each edge. Neither writes an argument.
-/
import proofs.«139961_j90305982365931_1_alg».proof.Proof.RefRun
import proofs.«139961_j90305982365931_1_alg».proof.Proof.Glue
import Idealize.ShloMosaic.Lib.StableHlo.Run

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (V : Valuation τ sig (Elt Ideal))

/-! ## The first stretch -/

theorem a_v3 : after opsA V (Proc.devRef .tc main_v3) = Glue.srcOf (V (Proc.devRef .tc main_arg1)) := by
  unfold opsA; after_results; rfl
theorem a_v6 : after opsA V (Proc.devRef .tc main_v6) = Glue.dstOf (V (Proc.devRef .tc main_arg1)) := by
  unfold opsA; after_results; rfl
theorem a_v12 : after opsA V (Proc.devRef .tc main_v12) = Glue.degPos (Glue.dstOf (V (Proc.devRef .tc main_arg1))) := by
  unfold opsA; after_results; rfl
theorem a_v13 : after opsA V (Proc.devRef .tc main_v13) = Glue.degRsqrt (Glue.dstOf (V (Proc.devRef .tc main_arg1))) := by
  unfold opsA; after_results; rfl
theorem a_cst_2 : after opsA V (Proc.devRef .tc main_cst_2) = Glue.zeroS := by
  unfold opsA; after_results; rfl
theorem a_arg0 : after opsA V (Proc.devRef .tc main_arg0) = V (Proc.devRef .tc main_arg0) := by
  unfold opsA; after_results_simp
theorem a_arg2 : after opsA V (Proc.devRef .tc main_arg2) = V (Proc.devRef .tc main_arg2) := by
  unfold opsA; after_results_simp
theorem a_arg3 : after opsA V (Proc.devRef .tc main_arg3) = V (Proc.devRef .tc main_arg3) := by
  unfold opsA; after_results_simp
theorem a_arg4 : after opsA V (Proc.devRef .tc main_arg4) = V (Proc.devRef .tc main_arg4) := by
  unfold opsA; after_results_simp
theorem a_arg5 : after opsA V (Proc.devRef .tc main_arg5) = V (Proc.devRef .tc main_arg5) := by
  unfold opsA; after_results_simp

/-! ## The second stretch -/

theorem n_v29 : after opsN V (Proc.devRef .tc main_v29)
    = Glue.normFrom (Glue.selOf (V (Proc.devRef .tc main_v12)) (V (Proc.devRef .tc main_v13)) (V (Proc.devRef .tc main_cst_2))) (V (Proc.devRef .tc main_v3)) (V (Proc.devRef .tc main_v6)) := by
  unfold opsN; after_results; rfl
theorem n_v3 : after opsN V (Proc.devRef .tc main_v3) = V (Proc.devRef .tc main_v3) := by
  unfold opsN; after_results_simp
theorem n_v6 : after opsN V (Proc.devRef .tc main_v6) = V (Proc.devRef .tc main_v6) := by
  unfold opsN; after_results_simp
theorem n_arg0 : after opsN V (Proc.devRef .tc main_arg0) = V (Proc.devRef .tc main_arg0) := by
  unfold opsN; after_results_simp
theorem n_arg2 : after opsN V (Proc.devRef .tc main_arg2) = V (Proc.devRef .tc main_arg2) := by
  unfold opsN; after_results_simp
theorem n_arg3 : after opsN V (Proc.devRef .tc main_arg3) = V (Proc.devRef .tc main_arg3) := by
  unfold opsN; after_results_simp
theorem n_arg4 : after opsN V (Proc.devRef .tc main_arg4) = V (Proc.devRef .tc main_arg4) := by
  unfold opsN; after_results_simp
theorem n_arg5 : after opsN V (Proc.devRef .tc main_arg5) = V (Proc.devRef .tc main_arg5) := by
  unfold opsN; after_results_simp

end Cert.ReferenceIdeal.Hand

end
-- ==== Proof.RefStagesB.lean ====
/-
  The reference's last four stretches over any starting contents: the first product aggregated along the edges; the
  hidden bias added to every row and rectified; the second product; the second aggregation with the output bias. None
  writes the edge lists, the edge weights or an argument.
-/
import proofs.«139961_j90305982365931_1_alg».proof.Proof.RefRun
import proofs.«139961_j90305982365931_1_alg».proof.Proof.Glue
import Idealize.ShloMosaic.Lib.StableHlo.Run

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (V : Valuation τ sig (Elt Ideal))

/-! ## The first product and its aggregation -/

theorem h1_v43 : after opsH1 V (Proc.devRef .tc main_v43)
    = Glue.agg128 (V (Proc.devRef .tc main_v3)) (V (Proc.devRef .tc main_v6)) (V (Proc.devRef .tc main_v29))
        (Host.dotGeneral (F := Ideal) (φ₁ := .f32) (φ₂ := .f32) dot_S100000x256_S256x128_S100000x128_1_0_0_1_n_n none (V (Proc.devRef .tc main_arg0)) (V (Proc.devRef .tc main_arg2))) := by
  unfold opsH1; after_results; rfl
theorem h1_v3 : after opsH1 V (Proc.devRef .tc main_v3) = V (Proc.devRef .tc main_v3) := by
  unfold opsH1; after_results_simp
theorem h1_v6 : after opsH1 V (Proc.devRef .tc main_v6) = V (Proc.devRef .tc main_v6) := by
  unfold opsH1; after_results_simp
theorem h1_v29 : after opsH1 V (Proc.devRef .tc main_v29) = V (Proc.devRef .tc main_v29) := by
  unfold opsH1; after_results_simp
theorem h1_arg3 : after opsH1 V (Proc.devRef .tc main_arg3) = V (Proc.devRef .tc main_arg3) := by
  unfold opsH1; after_results_simp
theorem h1_arg4 : after opsH1 V (Proc.devRef .tc main_arg4) = V (Proc.devRef .tc main_arg4) := by
  unfold opsH1; after_results_simp
theorem h1_arg5 : after opsH1 V (Proc.devRef .tc main_arg5) = V (Proc.devRef .tc main_arg5) := by
  unfold opsH1; after_results_simp

/-! ## The hidden layer -/

theorem h2_v47 : after opsH2 V (Proc.devRef .tc main_v47) = Glue.hiddenOf (V (Proc.devRef .tc main_v43)) (V (Proc.devRef .tc main_arg3)) := by
  unfold opsH2; after_results; rfl
theorem h2_v3 : after opsH2 V (Proc.devRef .tc main_v3) = V (Proc.devRef .tc main_v3) := by
  unfold opsH2; after_results_simp
theorem h2_v6 : after opsH2 V (Proc.devRef .tc main_v6) = V (Proc.devRef .tc main_v6) := by
  unfold opsH2; after_results_simp
theorem h2_v29 : after opsH2 V (Proc.devRef .tc main_v29) = V (Proc.devRef .tc main_v29) := by
  unfold opsH2; after_results_simp
theorem h2_arg4 : after opsH2 V (Proc.devRef .tc main_arg4) = V (Proc.devRef .tc main_arg4) := by
  unfold opsH2; after_results_simp
theorem h2_arg5 : after opsH2 V (Proc.devRef .tc main_arg5) = V (Proc.devRef .tc main_arg5) := by
  unfold opsH2; after_results_simp

/-! ## The second product -/

theorem h3_v48 : after opsH3 V (Proc.devRef .tc main_v48)
    = Host.dotGeneral (F := Ideal) (φ₁ := .f32) (φ₂ := .f32) dot_S100000x128_S128x16_S100000x16_1_0_0_1_n_n none (V (Proc.devRef .tc main_v47)) (V (Proc.devRef .tc main_arg4)) := by
  unfold opsH3; after_results
theorem h3_v3 : after opsH3 V (Proc.devRef .tc main_v3) = V (Proc.devRef .tc main_v3) := by
  unfold opsH3; after_results_simp
theorem h3_v6 : after opsH3 V (Proc.devRef .tc main_v6) = V (Proc.devRef .tc main_v6) := by
  unfold opsH3; after_results_simp
theorem h3_v29 : after opsH3 V (Proc.devRef .tc main_v29) = V (Proc.devRef .tc main_v29) := by
  unfold opsH3; after_results_simp
theorem h3_arg5 : after opsH3 V (Proc.devRef .tc main_arg5) = V (Proc.devRef .tc main_arg5) := by
  unfold opsH3; after_results_simp

/-! ## The second aggregation -/

theorem t_v64 : after opsT V (Proc.devRef .tc main_v64)
    = Glue.addOut (Glue.agg16 (V (Proc.devRef .tc main_v3)) (V (Proc.devRef .tc main_v6)) (V (Proc.devRef .tc main_v29)) (V (Proc.devRef .tc main_v48))) (V (Proc.devRef .tc main_arg5)) := by
  unfold opsT; after_results; rfl

end Cert.ReferenceIdeal.Hand

end
-- ==== Proof.RefValue.lean ====
/-
  The reference's result as a function of its six argument arrays, and its run stated with it: the four stretches read
  one after the other, each from what the one before left.
-/
import proofs.«139961_j90305982365931_1_alg».proof.Proof.RefStagesA
import proofs.«139961_j90305982365931_1_alg».proof.Proof.RefStagesB

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.SL.Sem Idealize.ShloMosaic.StableHlo

/-- The reference's result: the output bias added to the aggregation of `relu(aggregate(x · W1) + b1) · W2`, the
    products the host's. -/
def value (x0 : Glue.FArr S100000x256) (e : Glue.IArr S2x1600000) (x2 : Glue.FArr S256x128) (x3 : Glue.FArr S128)
    (x4 : Glue.FArr S128x16) (x5 : Glue.FArr S16) : Glue.FArr S100000x16 :=
  Glue.addOut
    (Glue.agg16 (Glue.srcOf e) (Glue.dstOf e) (Glue.normOf (Glue.srcOf e) (Glue.dstOf e))
      (Host.dotGeneral (F := Ideal) dot_S100000x128_S128x16_S100000x16_1_0_0_1_n_n none
        (Glue.hiddenOf
          (Glue.agg128 (Glue.srcOf e) (Glue.dstOf e) (Glue.normOf (Glue.srcOf e) (Glue.dstOf e))
            (Host.dotGeneral (F := Ideal) dot_S100000x256_S256x128_S100000x128_1_0_0_1_n_n none x0 x2))
          x3)
        x4))
    x5

variable (V : Valuation τ sig (Elt Ideal))

/-- The fold at the result buffer is `value` of the arguments' contents. -/
theorem out_eq : after ops V (Proc.devRef .tc main_v64)
    = value (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops, t_v64, h3_v3, h3_v6, h3_v29, h3_v48, h3_arg5, h2_v3, h2_v6, h2_v29, h2_v47, h2_arg4, h2_arg5,
    h1_v3, h1_v6, h1_v29, h1_v43, h1_arg3, h1_arg4, h1_arg5, n_v3, n_v6, n_v29, n_arg0, n_arg2, n_arg3, n_arg4, n_arg5,
    a_v3, a_v6, a_v12, a_v13, a_cst_2, a_arg0, a_arg2, a_arg3, a_arg4, a_arg5]
  rfl

/-- No operation writes an argument. -/
theorem keep_arg0 : after ops V (Proc.devRef .tc main_arg0) = V (Proc.devRef .tc main_arg0) := by
  unfold ops; after_results_simp
theorem keep_arg1 : after ops V (Proc.devRef .tc main_arg1) = V (Proc.devRef .tc main_arg1) := by
  unfold ops; after_results_simp
theorem keep_arg2 : after ops V (Proc.devRef .tc main_arg2) = V (Proc.devRef .tc main_arg2) := by
  unfold ops; after_results_simp
theorem keep_arg3 : after ops V (Proc.devRef .tc main_arg3) = V (Proc.devRef .tc main_arg3) := by
  unfold ops; after_results_simp
theorem keep_arg4 : after ops V (Proc.devRef .tc main_arg4) = V (Proc.devRef .tc main_arg4) := by
  unfold ops; after_results_simp
theorem keep_arg5 : after ops V (Proc.devRef .tc main_arg5) = V (Proc.devRef .tc main_arg5) := by
  unfold ops; after_results_simp

/-- Every weakly fair execution of @main terminates with the result at `value` of the arguments and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (out_eq _),
      (h c main_arg0).trans (keep_arg0 _), (h c main_arg1).trans (keep_arg1 _), (h c main_arg2).trans (keep_arg2 _),
      (h c main_arg3).trans (keep_arg3 _), (h c main_arg4).trans (keep_arg4 _), (h c main_arg5).trans (keep_arg5 _)⟩)
    (run_fold m ρ)

end Cert.ReferenceIdeal.Hand

end
-- ==== Proof.Bridge.lean ====
/-
  The two programs' results are one function of the arguments. They differ only in how the dense layers are spelt: the
  kernel's regions leave the matrix products `x · W1` and `relu(h + b1) · W2`, the reference computes the host's dot
  products with the bias broadcast and rectified by host operations. On the extended reals the host's plain dot product
  is the matrix product and the host's broadcast-add-maximum is the rectified bias layer over the bias laid out as a row;
  the edge aggregations around them are the same operations on both sides and are never opened. No finiteness is used.
-/
import proofs.«139961_j90305982365931_1_alg».proof.Proof.KValue
import proofs.«139961_j90305982365931_1_alg».proof.Proof.RefValue

noncomputable section

namespace Cert.Bridge

open Idealize.ShloMosaic Cert.Dense Cert.BiasRow

/-- The host's hidden layer is the rectified bias layer over the bias laid out as one row. -/
theorem hidden_eq (a : Glue.FArr Cert.ReferenceIdeal.S100000x128) (b : Glue.FArr Cert.ReferenceIdeal.S128) :
    Glue.hiddenOf a b = reluBias (M := 100000) (N := 128) a (row b) := by
  unfold Glue.hiddenOf
  exact hostReluBias a b _ _ _

/-- The kernel's result and the reference's are the same function of the six arguments. -/
theorem value_eq (x0 : Glue.FArr Cert.ReferenceIdeal.S100000x256) (e : Glue.IArr Cert.ReferenceIdeal.S2x1600000)
    (x2 : Glue.FArr Cert.ReferenceIdeal.S256x128) (x3 : Glue.FArr Cert.ReferenceIdeal.S128)
    (x4 : Glue.FArr Cert.ReferenceIdeal.S128x16) (x5 : Glue.FArr Cert.ReferenceIdeal.S16) :
    Cert.ReferenceIdeal.Hand.value x0 e x2 x3 x4 x5 = Cert.KernelIdeal.Fold.kval x0 e x2 x3 x4 x5 := by
  unfold Cert.ReferenceIdeal.Hand.value Cert.KernelIdeal.Fold.kval
  rw [hostDot_eq_mm Cert.ReferenceIdeal.dot_S100000x256_S256x128_S100000x128_1_0_0_1_n_n rfl rfl rfl rfl rfl rfl none x0 x2,
    hidden_eq,
    hostDot_eq_mm Cert.ReferenceIdeal.dot_S100000x128_S128x16_S100000x16_1_0_0_1_n_n rfl rfl rfl rfl rfl rfl none _ x4]

end Cert.Bridge

end
-- ==== Proof.lean ====
/-
  The proof of `Cert.Claim`: a two-layer graph convolution whose two dense layers run as TensorCore kernels (bf16
  operands into an f32 accumulator, 5000 rows per grid point) against the plain jnp reference.

  On the extended reals a change of float format is the identity and a product into a zero accumulator is the matrix
  product, so region 0 leaves `x · W1` and region 1 leaves `relu(h + b1) · W2` of the arrays they find (Proof/KBlocks.lean);
  the host stretches around them are the reference's own edge aggregations (Proof/KFoldA.lean, Proof/KFoldB.lean), so the
  kernel's result is one function of the arguments (Proof/KValue.lean) read off the kernel's run (Proof/KRun.lean). The
  reference's run is read stretch by stretch (Proof/RefRun.lean, Proof/RefStagesA.lean, Proof/RefStagesB.lean,
  Proof/RefValue.lean) to the same aggregations around the host's dot products, and the host's dot product and bias layer
  are the matrix product and the rectified bias layer (Proof/Bridge.lean). The three frames are the generated kernel frames
  and the reference's run with the result dropped; the idealization rewrote nothing.
-/
import proofs.«139961_j90305982365931_1_alg».proof.Defs
import proofs.«139961_j90305982365931_1_alg».proof.Proof.Gen.Kernel
import proofs.«139961_j90305982365931_1_alg».proof.Proof.Gen.Kernel.Frame
import proofs.«139961_j90305982365931_1_alg».proof.Proof.Gen.KernelIdeal
import proofs.«139961_j90305982365931_1_alg».proof.Proof.Gen.KernelIdeal.Frame
import proofs.«139961_j90305982365931_1_alg».proof.Proof.Gen.ReferenceIdeal
import proofs.«139961_j90305982365931_1_alg».proof.Proof.Gen.Pre_finite_inputs
import proofs.«139961_j90305982365931_1_alg».proof.Proof.KRun
import proofs.«139961_j90305982365931_1_alg».proof.Proof.KValue
import proofs.«139961_j90305982365931_1_alg».proof.Proof.RefValue
import proofs.«139961_j90305982365931_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- Both programs end with the same function of arguments that agree. -/
theorem algebraic : Cert.algebraic_KernelIdeal_ReferenceIdeal := by
  intro m ρ m' ρ' _ hagree
  refine ⟨fun c => Cert.KernelIdeal.Fold.kval (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.kernel_value m ρ c), (h c).2⟩) (Cert.KernelIdeal.Run.run m ρ)
  · refine (θ_run Cert.ReferenceIdeal.defs _ _).mono (fun r h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2]
    exact Cert.Bridge.value_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
